-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_24" .f32 0x3D2AAAAB#32 ((1 / 24 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x12x4096 : Shape := ⟨3, ![1024, 12, 4096]⟩
abbrev S_ : Shape := ⟨0, ![]⟩

class Facts : Prop where
  bcast_S_S1024x12x4096 : S_.BroadcastsInDim S1024x12x4096 (![] : Fin 0 → Fin S1024x12x4096.rank)
  reducesTo_S1024x12x4096_S_d0_1_2 : S1024x12x4096.ReducesTo [0, 1, 2] S_
  h_S_ : 0 < S_.numel

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1024x12x4096 .f32) (main_arg1 : FVec F S1024x12x4096 .f32) : IVec S_ 1 :=
  let main_v0 : FVec F S1024x12x4096 .f32 := Host.absf main_arg0
  let main_cst : FVec F S_ .f32 := constant S_ .f32 0x7F800000#32
  let main_v1 : FVec F S1024x12x4096 .f32 := broadcastInDim S1024x12x4096 ![] bcast_S_S1024x12x4096 main_cst
  let main_v2 : IVec S1024x12x4096 1 := cmpf .olt main_v0 main_v1
  let main_c : IVec S_ 1 := constantI S_ 1 1#1
  let main_v3 : IVec S_ 1 := (fun x v => Host.reduce IntOp.andi x v reducesTo_S1024x12x4096_S_d0_1_2 h_S_) main_v2 main_c
  let main_v4 : FVec F S1024x12x4096 .f32 := Host.absf main_arg1
  let main_cst_0 : FVec F S_ .f32 := constant S_ .f32 0x7F800000#32
  let main_v5 : FVec F S1024x12x4096 .f32 := broadcastInDim S1024x12x4096 ![] bcast_S_S1024x12x4096 main_cst_0
  let main_v6 : IVec S1024x12x4096 1 := cmpf .olt main_v4 main_v5
  let main_c_1 : IVec S_ 1 := constantI S_ 1 1#1
  let main_v7 : IVec S_ 1 := (fun x v => Host.reduce IntOp.andi x v reducesTo_S1024x12x4096_S_d0_1_2 h_S_) main_v6 main_c_1
  let main_v8 : IVec S_ 1 := andi main_v3 main_v7
  let main_cst_2 : FVec F S_ .f32 := constant S_ .f32 0x00000000#32
  let main_v9 : FVec F S1024x12x4096 .f32 := broadcastInDim S1024x12x4096 ![] bcast_S_S1024x12x4096 main_cst_2
  let main_v10 : IVec S1024x12x4096 1 := cmpf .ogt main_arg0 main_v9
  let main_c_3 : IVec S_ 1 := constantI S_ 1 1#1
  let main_v11 : IVec S_ 1 := (fun x v => Host.reduce IntOp.andi x v reducesTo_S1024x12x4096_S_d0_1_2 h_S_) main_v10 main_c_3
  let main_v12 : IVec S_ 1 := andi main_v8 main_v11
  let main_cst_4 : FVec F S_ .f32 := constant S_ .f32 0x00000000#32
  let main_v13 : FVec F S1024x12x4096 .f32 := broadcastInDim S1024x12x4096 ![] bcast_S_S1024x12x4096 main_cst_4
  let main_v14 : IVec S1024x12x4096 1 := cmpf .ogt main_arg1 main_v13
  let main_c_5 : IVec S_ 1 := constantI S_ 1 1#1
  let main_v15 : IVec S_ 1 := (fun x v => Host.reduce IntOp.andi x v reducesTo_S1024x12x4096_S_d0_1_2 h_S_) main_v14 main_c_5
  fn_part1 (F := F) main_v12 main_v15
-- ==== Kernel.lean ====
abbrev S1024x12x4096 : Shape := ⟨3, ![1024, 12, 4096]⟩
abbrev S12288x4096 : Shape := ⟨2, ![12288, 4096]⟩
abbrev S16x128 : Shape := ⟨2, ![16, 128]⟩
abbrev S256x4096 : Shape := ⟨2, ![256, 4096]⟩
abbrev S8x128 : Shape := ⟨2, ![8, 128]⟩
abbrev S1x1 : Shape := ⟨2, ![1, 1]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S1024x12x4096, .f32⟩
  | .hbm, ⟨1, _⟩ => ⟨S1024x12x4096, .f32⟩
  | .hbm, ⟨2, _⟩ => ⟨S12288x4096, .f32⟩
  | .hbm, ⟨3, _⟩ => ⟨S12288x4096, .f32⟩
  | .hbm, ⟨4, _⟩ => ⟨S16x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S1024x12x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 24], ![false, false]⟩

def k0_cond2 (i : grid0.Coords) : BitVec 1 :=
  let arg1 : BitVec 32 := BitVec.ofNat 32 (i 1).val
  let c23_i32 : BitVec 32 := 23#32
  let v19 : BitVec 1 := Scalar.cmpi .eq arg1 c23_i32
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S1024x12x4096_S12288x4096 : S1024x12x4096.ShapeCasts S12288x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S12288x4096.size a
  hwx0_0 : ∀ i : grid0.Coords, EltTy.bits .f32 = 32 ∨ (Rect.block (s := S12288x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S12288x4096.size a
  hwx0_1 : ∀ i : grid0.Coords, EltTy.bits .f32 = 32 ∨ (Rect.block (s := S12288x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1024x12x4096 : Shape := ⟨3, ![1024, 12, 4096]⟩
abbrev S_ : Shape := ⟨0, ![]⟩
abbrev S1024 : Shape := ⟨1, ![1024]⟩

abbrev nBuf : Space → Nat
  | .hbm => 30
  | .vmem => 0
  | .smem => 0
  | _ => 0

abbrev bufTy : (tb : Table) → Fin (tcTables nBuf tb) → BufTy
  | .hbm, ⟨0, _⟩ => ⟨S1024x12x4096, .f32⟩
  | .hbm, ⟨1, _⟩ => ⟨S1024x12x4096, .f32⟩
  | .hbm, ⟨2, _⟩ => ⟨S1024x12x4096, .f32⟩
  | .hbm, ⟨3, _⟩ => ⟨S_, .f32⟩
  | .hbm, ⟨4, _⟩ => ⟨S1024x12x4096, .f32⟩
  | .hbm, ⟨5, _⟩ => ⟨S1024x12x4096, .f32⟩
  | .hbm, ⟨6, _⟩ => ⟨S1024x12x4096, .f32⟩
  | .hbm, ⟨7, _⟩ => ⟨S1024x12x4096, .f32⟩
  | .hbm, ⟨8, _⟩ => ⟨S1024x12x4096, .f32⟩
  | .hbm, ⟨9, _⟩ => ⟨S1024x12x4096, .f32⟩
  | .hbm, ⟨10, _⟩ => ⟨S1024x12x4096, .f32⟩
  | .hbm, ⟨11, _⟩ => ⟨S_, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024x12x4096, .f32⟩
  | .hbm, ⟨17, _⟩ => ⟨S1024x12x4096, .f32⟩
  | .hbm, ⟨18, _⟩ => ⟨S1024x12x4096, .f32⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S_, .f32⟩
  | _, _ => ⟨S1024x12x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S_S1024x12x4096 : S_.BroadcastsInDim S1024x12x4096 (![] : Fin 0 → Fin S1024x12x4096.rank)
  reducesTo_S1024x12x4096_S1024_d1_2 : S1024x12x4096.ReducesTo [1, 2] S1024
  h_S_ : 0 < S_.numel
  bcast_S_S1024 : S_.BroadcastsInDim S1024 (![] : Fin 0 → Fin S1024.rank)
  reducesTo_S1024_S_d0 : S1024.ReducesTo [0] S_

variable [Facts₀]

class Facts : Prop extends Facts₀ where

variable [Facts]
-- ==== Proof.Spec.lean ====
/-
  The two values this certificate compares, as formulas of the argument arrays.

  The arguments are two arrays `p`, `q` of extended reals indexed by sample `b < 1024`, head `h < 12` and position
  `l < 4096`. Flattened to 12288 rows, row `R = 12 b + h` of an array is its `(b, h)` row.

  The kernel walks the flattened rows in 48 blocks of 256 rows. A block's contribution is the sum over its rows and
  positions of `p · log (p / q)`. A running sum is restarted at blocks 0 and 24 and extended at every other block, and
  the kernel's value is the running sum after block 23 times a constant `c` plus the running sum after block 47 times
  `c`.

  The reference computes, per sample, half of `(Σ e · (m − log p)) / 12 + (Σ e · (m − log q)) / 12` with
  `m = log (½ (p + p))` and `e = exp m`, the sums over heads and positions, and adds these over the samples.
-/
import Idealize.ShloMosaic.PureOps.Ideal
import Idealize.ShloMosaic.Lib.ValueIdx

noncomputable section

namespace Cert.KlSum

open Idealize.ShloMosaic Idealize.ShloMosaic.ValueIdx

/-- An array of extended reals indexed by sample, head and position. -/
abbrev Arr3 : Type := (⟨3, ![1024, 12, 4096]⟩ : Shape).Idx → EReal

/-- The float words the two programs carry: zero, one half, twelve. -/
def zeroW : EReal := Ideal.ofBits .f32 0x00000000#32
def halfW : EReal := Ideal.ofBits .f32 0x3F000000#32
def twelveW : EReal := Ideal.ofBits .f32 0x41400000#32

/-- Row `R` of the array flattened to 12288 rows, at position `l`: the entry of sample `R / 12` and head `R % 12`. -/
def rowAt (x : Arr3) (R : ℕ) (l : Fin 4096) : EReal :=
  x (ix3 (⟨R / 12 % 1024, Nat.mod_lt _ (by norm_num)⟩ : Fin 1024) (⟨R % 12, Nat.mod_lt _ (by norm_num)⟩ : Fin 12) l)

/-- The kernel's summand. -/
def kterm (p q : EReal) : EReal := p * Ideal.log (Ideal.div p q)

/-- Block `t`'s contribution: the summand over rows `256 t … 256 t + 255` and all positions. -/
def blockSum (p q : Arr3) (t : ℕ) : EReal :=
  ∑ r : Fin 256, ∑ l : Fin 4096, kterm (rowAt p (256 * t + r.val) l) (rowAt q (256 * t + r.val) l)

/-- The running sum after block `n`: restarted from the zero word at every multiple of 24. -/
def accAt (B : ℕ → EReal) : ℕ → EReal
  | 0 => zeroW + B 0
  | n + 1 => if (n + 1) % 24 = 0 then zeroW + B (n + 1) else accAt B n + B (n + 1)

/-- The kernel's value with scale `c`. -/
def kernelValue (c : EReal) (p q : Arr3) : EReal :=
  accAt (blockSum p q) 23 * c + accAt (blockSum p q) 47 * c

/-- The reference's `m = log (½ (p + p))`. -/
def mid (p : EReal) : EReal := Ideal.log (halfW * (p + p))

/-- The reference's summand `exp m · (m − log q)`. -/
def rterm (p q : EReal) : EReal := Ideal.exp (mid p) * (mid p - Ideal.log q)

/-- The reference's value. -/
def refValue (p q : Arr3) : EReal :=
  zeroW + ∑ b : Fin 1024, halfW *
    (Ideal.div (zeroW + ∑ h : Fin 12, ∑ l : Fin 4096, rterm (p (ix3 b h l)) (p (ix3 b h l))) twelveW
      + Ideal.div (zeroW + ∑ h : Fin 12, ∑ l : Fin 4096, rterm (p (ix3 b h l)) (q (ix3 b h l))) twelveW)

/-- Every entry of the array is a positive real. -/
def PosReal (x : Arr3) : Prop := ∀ i, ∃ r : ℝ, 0 < r ∧ x i = (r : EReal)

end Cert.KlSum

end
-- ==== Proof.LibLayout3.lean ====
/-
  Four layout operations on rank-three arrays, read at an index.

  Casting `[A, B, K]` to `[M, K]` with `M = A * B` merges the two leading axes: row `a * B + b` of the result is row
  `(a, b)` of the operand, both having row-major position `(a * B + b) * K + k`. Casting back splits them.
  Casting `[A, B]` to `[A, B, 1]` appends a unit axis: entry `(a, b, 0)` is entry `(a, b)`.
  Broadcasting `[A, B, 1]` to `[A, B, C]` copies entry `(a, b, 0)` along the last axis.
-/
import Idealize.ShloMosaic.Lib.Pipeline.Value
import Idealize.ShloMosaic.Lib.ValueIdx

namespace Cert.Layout3

open Idealize.ShloMosaic Idealize.ShloMosaic.ValueIdx

variable {α : Type}

/-- `[A, B, K]` cast to `[M, K]`: at row `q = a * B + b` and column `k`, the operand at `(a, b, k)`. -/
theorem shapeCast_abk_mk_apply {A B K M : ℕ} (x : (⟨3, ![A, B, K]⟩ : Shape).Idx → α)
    (h : (⟨3, ![A, B, K]⟩ : Shape).ShapeCasts ⟨2, ![M, K]⟩) (a : Fin A) (b : Fin B) (k : Fin K) (q : Fin M)
    (hq : q.val = a.val * B + b.val) : shapeCast ⟨2, ![M, K]⟩ x h (ix2 q k) = x (ix3 a b k) :=
  shapeCast_apply x h _ _ (by
    rw [Shape.rowMajor_val_three, Shape.rowMajor_val_two]
    show (a.val * B + b.val) * K + k.val = q.val * K + k.val
    rw [hq])

/-- `[M, K]` cast to `[A, B, K]`: at `(a, b, k)`, the operand at row `q = a * B + b` and column `k`. -/
theorem shapeCast_mk_abk_apply {A B K M : ℕ} (y : (⟨2, ![M, K]⟩ : Shape).Idx → α)
    (h : (⟨2, ![M, K]⟩ : Shape).ShapeCasts ⟨3, ![A, B, K]⟩) (a : Fin A) (b : Fin B) (k : Fin K) (q : Fin M)
    (hq : q.val = a.val * B + b.val) : shapeCast ⟨3, ![A, B, K]⟩ y h (ix3 a b k) = y (ix2 q k) :=
  shapeCast_apply y h _ _ (by
    rw [Shape.rowMajor_val_two, Shape.rowMajor_val_three]
    show q.val * K + k.val = (a.val * B + b.val) * K + k.val
    rw [hq])

/-- `[A, B]` cast to `[A, B, 1]`: at `(a, b, u)`, the operand at `(a, b)`, whatever the unit coordinate `u`. -/
theorem shapeCast_ab_ab1_apply {A B : ℕ} (x : (⟨2, ![A, B]⟩ : Shape).Idx → α)
    (h : (⟨2, ![A, B]⟩ : Shape).ShapeCasts ⟨3, ![A, B, 1]⟩) (a : Fin A) (b : Fin B) (u : Fin 1) :
    shapeCast ⟨3, ![A, B, 1]⟩ x h (ix3 a b u) = x (ix2 a b) :=
  shapeCast_apply x h _ _ (by
    have hu : u.val = 0 := by omega
    rw [Shape.rowMajor_val_two, Shape.rowMajor_val_three]
    show a.val * B + b.val = (a.val * B + b.val) * 1 + u.val
    rw [hu, Nat.mul_one, Nat.add_zero])

/-- `[A, B, 1]` broadcast to `[A, B, C]`: at `(a, b, c)`, the operand at `(a, b, u)`. -/
theorem broadcastTo_ab1_abc_apply {A B C : ℕ} (v : (⟨3, ![A, B, 1]⟩ : Shape).Idx → α)
    (h : (⟨3, ![A, B, 1]⟩ : Shape).Broadcasts ⟨3, ![A, B, C]⟩) (a : Fin A) (b : Fin B) (c : Fin C) (u : Fin 1) :
    broadcastTo ⟨3, ![A, B, C]⟩ v h (ix3 a b c) = v (ix3 a b u) := by
  refine broadcastTo_apply v h (ix3 a b c) (ix3 a b u) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ =>
    show u.val = if (1 : ℕ) = 1 then 0 else c.val
    rw [if_pos rfl]; omega

end Cert.Layout3
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.KernelPieces.lean ====
/-
  What one pass of the kernel body leaves behind, and what its arithmetic is at an index.

  The body keeps a one-by-one running sum in a scratch cell. At the first block of a run it first stores the zero
  word there. At every block it reads the cell, adds the block's contribution (the sum over the block's 256 rows and
  4096 positions of `p · log (p / q)`) and stores the result back. At the last block of a run it reads the cell once
  more, multiplies by the named constant and fills the eight-by-128 output block with that one number.

  Part one, for any model of the floats: in each of the three control cases the cell ends holding the body's sum
  formula applied to the two input blocks and to what the cell held when the addition read it (the zero splat in the
  first case, the carried contents in the other two), and in the last case the output block ends holding the scaled
  broadcast of the cell's new value. Each is the payload of the last store covering the buffer: a load of a buffer
  that a whole-buffer store has just covered reads that store's payload, and a load of an untouched whole buffer
  reads its contents.

  Part two, over the extended reals: the three payloads read at an index. The zero splat is the zero word
  everywhere. The sum formula is two single-axis sums, positions first (a column of 256 row sums), then rows; the
  two casts that keep the summed axis as a unit axis preserve row-major position, so the column's entry `(r, 0)` is
  row `r`'s sum and the result's entry `(0, 0)` is the column's sum. The scaled broadcast copies the one entry of a
  one-by-one product to every output index.
-/
import proofs.«177159_j76003741270582_2_alg».proof.Proof.Spec
import proofs.«177159_j76003741270582_2_alg».proof.Proof.Gen.KernelIdeal.Frame
import proofs.«177159_j76003741270582_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KlSum

open Cert.KernelIdeal Cert.KernelIdeal.Gen Idealize.ShloMosaic Idealize.ShloMosaic.ValueIdx
open Idealize.ShloMosaic.TcCoe Idealize.SL.Sem

section Pieces

variable {F : FTy → Type} [FloatOps F] [Named F]

/-- The offset of a store or load of a whole two-axis buffer. -/
theorem hz2 : (![0, 0] : Fin 2 → Nat) = fun _ => 0 := funext fun a => by fin_cases a <;> rfl

/-- First block of a run: the cell is zeroed, read back, and ends at the zero splat plus the block's contribution. -/
theorem sout_A (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S8x128 .f32) (harg4 : arg4.IsWhole) (arg5 : Memref sig .tc .vmem S1x1 .f32) (harg5 : arg5.IsWhole) (hc0 : cond0_0 i) (hc1 : ¬cond0_1 i)
    (x0 x1 : Vec F S256x4096 .f32) :
    sout0_A_0 (F := F) c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, View.ld_unit_zero (S := S256x4096) hz2]

/-- A middle block of a run: the cell ends at its carried contents plus the block's contribution. -/
theorem sout_B (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S8x128 .f32) (harg4 : arg4.IsWhole) (arg5 : Memref sig .tc .vmem S1x1 .f32) (harg5 : arg5.IsWhole) (hc0 : ¬cond0_0 i) (hc1 : ¬cond0_1 i)
    (x0 x1 : Vec F S256x4096 .f32) (xs0 : Vec F S1x1 .f32) :
    sout0_B_0 (F := F) c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S1x1) hz2]
  simp only [View.readAt_eq_ld, harg2.read_unread, harg3.read_unread, harg5.read_unread,
    View.ld_unit_zero (S := S256x4096) hz2, View.ld_unit_zero (S := S1x1) hz2]

/-- Last block of a run: the cell ends as in the middle case, -/
theorem sout_C (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S8x128 .f32) (harg4 : arg4.IsWhole) (arg5 : Memref sig .tc .vmem S1x1 .f32) (harg5 : arg5.IsWhole) (hc0 : ¬cond0_0 i) (hc1 : cond0_1 i)
    (x0 x1 : Vec F S256x4096 .f32) (xs0 : Vec F S1x1 .f32) :
    sout0_C_0 (F := F) c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1x1) hz2]
  simp only [View.readAt_eq_ld, harg2.read_unread, harg3.read_unread, harg5.read_unread,
    View.ld_unit_zero (S := S256x4096) hz2, View.ld_unit_zero (S := S1x1) hz2]

/-- and the output block ends at the scaled broadcast of that new cell value, which the body reads back from the cell. -/
theorem out_C (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S8x128 .f32) (harg4 : arg4.IsWhole) (arg5 : Memref sig .tc .vmem S1x1 .f32) (harg5 : arg5.IsWhole) (hc0 : ¬cond0_0 i) (hc1 : cond0_1 i)
    (x0 x1 : Vec F S256x4096 .f32) (xs0 : Vec F S1x1 .f32) :
    out0_C_2 (F := F) c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S8x128) hz2, View.readCov_unit_zero (S := S1x1) _ hz2]
  simp only [View.readAt_eq_ld, harg2.read_unread, harg3.read_unread, harg5.read_unread,
    View.ld_unit_zero (S := S256x4096) hz2, View.ld_unit_zero (S := S1x1) hz2]

end Pieces

section Arithmetic

/-- A one-by-one block has one index. -/
theorem idx_S1x1 (y : S1x1.Idx) : y = ix2 (0 : Fin 1) (0 : Fin 1) := by
  funext a
  match a with
  | ⟨0, _⟩ => exact Subsingleton.elim (α := Fin 1) _ _
  | ⟨1, _⟩ => exact Subsingleton.elim (α := Fin 1) _ _

/-- Summing a 256-by-1 column over its rows: the source index over the one result index with row `k` inserted is `(k, 0)`. -/
theorem lift_col (h : S256x1.Reduces [0] S1) (k : Fin 256) : h.lift (ix1 (0 : Fin 1)) k = ix2 k (0 : Fin 1) := by
  funext a
  match a with
  | ⟨0, _⟩ => exact Fin.ext rfl
  | ⟨1, _⟩ => exact Fin.ext rfl

/-- Summing a 256-by-4096 block over its positions: the source index over row `r` with position `l` inserted is `(r, l)`. -/
theorem lift_row (h : S256x4096.Reduces [1] S256) (r : Fin 256) (l : Fin 4096) : h.lift (ix1 r) l = ix2 r l := by
  funext a
  match a with
  | ⟨0, _⟩ => exact Fin.ext rfl
  | ⟨1, _⟩ => exact Fin.ext rfl

/-- The zero splat is the zero word at every index. -/
theorem pay1_apply (y : S1x1.Idx) : k0_pay1 (F := Ideal) y = zeroW := by
  unfold k0_pay1
  rw [shapeCast_self]
  rfl

/-- The sum formula at its one index: the accumulator plus the sum over rows and positions of `p · log (p / q)`. -/
theorem pay2_apply (x0 x1 : Vec Ideal S256x4096 .f32) (acc : Vec Ideal S1x1 .f32) (y : S1x1.Idx) :
    k0_pay2 (F := Ideal) x0 x1 acc y = acc y + ∑ r : Fin 256, ∑ l : Fin 4096, kterm (x0 (ix2 r l)) (x1 (ix2 r l)) := by
  obtain rfl := idx_S1x1 y
  unfold k0_pay2
  simp only [shapeCast_self]
  refine congrArg (acc (ix2 0 0) + ·) ?_
  refine (Idealize.ShloMosaic.Keepdims.shapeCast_a_a1_apply _ shapeCasts_S1_S1x1 (0 : Fin 1) (0 : Fin 1)).trans ?_
  refine (Ideal.multiReduction_add_single (φ := .f32) _ 0x00000000#32 reduces_S256x1_S1 (.inl rfl) rfl (ix1 (0 : Fin 1))).trans ?_
  refine Finset.sum_congr rfl fun r _ => ?_
  refine (congrArg _ (lift_col reduces_S256x1_S1 r)).trans ?_
  refine (Idealize.ShloMosaic.Keepdims.shapeCast_a_a1_apply _ shapeCasts_S256_S256x1 r (0 : Fin 1)).trans ?_
  refine (Ideal.multiReduction_add_single (φ := .f32) _ 0x00000000#32 reduces_S256x4096_S256 (.inl rfl) rfl (ix1 r)).trans ?_
  refine Finset.sum_congr rfl fun l _ => ?_
  refine (congrArg _ (lift_row reduces_S256x4096_S256 r l)).trans ?_
  rfl

/-- The scaled broadcast at any output index: the one-by-one operand's entry times the named constant. -/
theorem pay3_apply (v : Vec Ideal S1x1 .f32) (y : S8x128.Idx) :
    k0_pay3 (F := Ideal) v y = v (ix2 0 0) * Named.named (F := Ideal) Cert.KernelIdeal.κ "inv_24" (φ := .f32) 0x3D2AAAAB#32 := by
  unfold k0_pay3
  refine (broadcastTo_apply _ broadcasts_S1x1_S8x128 y (ix2 (0 : Fin 1) (0 : Fin 1)) fun a => ?_).trans ?_
  · match a with
    | ⟨0, _⟩ => exact (if_pos rfl).symm
    | ⟨1, _⟩ => exact (if_pos rfl).symm
  · rw [shapeCast_self]
    rfl

end Arithmetic

end Cert.KlSum

end
-- ==== Proof.KernelRun.lean ====
/-
  The idealized kernel's run, read as a value.

  The kernel visits 48 grid points; point `t` stages rows `256 t … 256 t + 255` of the two arguments, each flattened
  from [1024, 12, 4096] to [12288, 4096] (row `R` of the flattened array is row `(R / 12, R % 12)` of the argument).
  A one-cell scratch carries a running sum between points: at the points 0 and 24 it is restarted from zero, at every
  point the block's sum of `p · log (p / q)` over its rows and positions is added. At the points 23 and 47 the running
  sum times the scale is stored into every cell of the output block, which is block 0 (rows 0–7) of the [16, 128] output
  array at point 23 and block 1 (rows 8–15) at point 47; these are the only write-backs. The lines after the kernel add
  cell (0, 0) and cell (8, 0) of that array.

  So: by induction on the point the scratch holds the Spec's `accAt` of the block sums; the output array ends with
  `accAt … 23 · scale` in rows 0–7 and `accAt … 47 · scale` in rows 8–15; and the program's result is their sum, the
  Spec's `kernelValue`.
-/
import proofs.«177159_j76003741270582_2_alg».proof.Proof.Spec
import proofs.«177159_j76003741270582_2_alg».proof.Proof.LibLayout3
import proofs.«177159_j76003741270582_2_alg».proof.Proof.KernelPieces
import proofs.«177159_j76003741270582_2_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KlSum

open Cert.KernelIdeal Cert.KernelIdeal.Gen

variable {F : FTy → Type} [FloatOps F] [Named F]
variable (m : (ℓ : Loc nD τ sig) → Buf (Elt F) ℓ) (ρ : Dev nD → PrngReg)

/-! ## What the region finds in its input windows -/

/-- The first window's array, as the region finds it: the first argument flattened to 12288 rows. -/
theorem V_v0 (c : Dev nD) :
    (V m c main_v0 : (⟨S12288x4096, .f32⟩ : BufTy).Contents (Elt F))
      = shapeCast S12288x4096 (m ((c : Thread nD τ).loc main_arg0)) shapeCasts_S1024x12x4096_S12288x4096 := by
  show StableHlo.after hostOps0 (fun b => m (c, b)) (Proc.devRef .tc main_v0) = _
  after_results
  rfl

/-- The second window's array: the second argument flattened likewise. -/
theorem V_v1 (c : Dev nD) :
    (V m c main_v1 : (⟨S12288x4096, .f32⟩ : BufTy).Contents (Elt F))
      = shapeCast S12288x4096 (m ((c : Thread nD τ).loc main_arg1)) shapeCasts_S1024x12x4096_S12288x4096 := by
  show StableHlo.after hostOps0 (fun b => m (c, b)) (Proc.devRef .tc main_v1) = _
  after_results
  rfl

/-- Point `t` of the grid reads block `t` of the rows (the row-block index is `24 · core + step`, the point's own number)
    and the whole row. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem row_lt (t : Fin cfg0.N) (r : Fin 256) : 256 * t.val + r.val < 12288 := by
  have hN : cfg0.N = 48 := N_0
  have := t.isLt; have := r.isLt; omega

/-- Entry `(r, l)` of the first window's block at point `t` is entry `(256 t + r, l)` of its array. -/
theorem iblk0_apply (c : Dev nD) (t : Fin cfg0.N) (r : Fin 256) (l : Fin 4096) :
    (iblk m c 0 t : Vec F S256x4096 .f32) (ix2 r l) = V m c main_v0 (ix2 (⟨256 * t.val + r.val, row_lt t r⟩ : Fin 12288) l) := by
  unfold iblk
  rw [View.read_apply]
  show V m c main_v0 _ = V m c main_v0 _
  congr 1
  funext a
  apply Fin.ext
  match a with
  | ⟨0, _⟩ => show win0_0.index t 0 * 256 + 1 * r.val = 256 * t.val + r.val; rw [(idx0 t).1]; omega
  | ⟨1, _⟩ => show win0_0.index t 1 * 4096 + 1 * l.val = l.val; rw [(idx0 t).2]; omega

theorem iblk1_apply (c : Dev nD) (t : Fin cfg0.N) (r : Fin 256) (l : Fin 4096) :
    (iblk m c 1 t : Vec F S256x4096 .f32) (ix2 r l) = V m c main_v1 (ix2 (⟨256 * t.val + r.val, row_lt t r⟩ : Fin 12288) l) := by
  unfold iblk
  rw [View.read_apply]
  show V m c main_v1 _ = V m c main_v1 _
  congr 1
  funext a
  apply Fin.ext
  match a with
  | ⟨0, _⟩ => show win0_1.index t 0 * 256 + 1 * r.val = 256 * t.val + r.val; rw [(idx1 t).1]; omega
  | ⟨1, _⟩ => show win0_1.index t 1 * 4096 + 1 * l.val = l.val; rw [(idx1 t).2]; omega

/-! ## The running sum the kernel carries, at the ideal values -/

section IdealRun

variable (m : (ℓ : Loc nD τ sig) → Buf (Elt Ideal) ℓ)

/-- The kernel's scale: the constant the certificate's table names. -/
abbrev scaleW : EReal := Named.named (F := Ideal) Cert.KernelIdeal.κ "inv_24" (φ := .f32) 0x3D2AAAAB#32

/-- The two arguments on core `c`. -/
abbrev argP (c : Dev nD) : Arr3 := m ((c : Thread nD τ).loc main_arg0)
abbrev argQ (c : Dev nD) : Arr3 := m ((c : Thread nD τ).loc main_arg1)

/-- An entry of the first window's block is the entry of the flattened argument's row. -/
theorem block_entry0 (c : Dev nD) (t : Fin cfg0.N) (r : Fin 256) (l : Fin 4096) :
    (iblk m c 0 t : Vec Ideal S256x4096 .f32) (ix2 r l) = rowAt (argP m c) (256 * t.val + r.val) l := by
  rw [iblk0_apply, V_v0]
  unfold rowAt
  refine Cert.Layout3.shapeCast_abk_mk_apply _ _ _ _ _ _ ?_
  have := row_lt t r
  show 256 * t.val + r.val = (256 * t.val + r.val) / 12 % 1024 * 12 + (256 * t.val + r.val) % 12
  omega

theorem block_entry1 (c : Dev nD) (t : Fin cfg0.N) (r : Fin 256) (l : Fin 4096) :
    (iblk m c 1 t : Vec Ideal S256x4096 .f32) (ix2 r l) = rowAt (argQ m c) (256 * t.val + r.val) l := by
  rw [iblk1_apply, V_v1]
  unfold rowAt
  refine Cert.Layout3.shapeCast_abk_mk_apply _ _ _ _ _ _ ?_
  have := row_lt t r
  show 256 * t.val + r.val = (256 * t.val + r.val) / 12 % 1024 * 12 + (256 * t.val + r.val) % 12
  omega

/-- The body's sum over the blocks at point `t` is block `t`'s contribution. -/
theorem blockSum_eq (c : Dev nD) (t : Fin cfg0.N) :
    (∑ r : Fin 256, ∑ l : Fin 4096, kterm ((iblk m c 0 t : Vec Ideal S256x4096 .f32) (ix2 r l)) ((iblk m c 1 t : Vec Ideal S256x4096 .f32) (ix2 r l)))
      = blockSum (argP m c) (argQ m c) t.val := by
  unfold blockSum
  refine Finset.sum_congr rfl fun r _ => Finset.sum_congr rfl fun l _ => ?_
  rw [block_entry0, block_entry1]

/-- After point `n` the scratch accumulator holds the running sum of the block contributions. -/
theorem scratch_eq (c : Dev nD) : ∀ (n : ℕ) (h : n < cfg0.N),
    (outsAt0 (F := Ideal) m c n h).2 = fun _ => accAt (blockSum (argP m c) (argQ m c)) n
  | 0, h => by
    funext y
    rw [outsAt0_A m c ⟨0, h⟩ rfl (by dsimp only; omega)]
    dsimp only
    rw [sout_A, pay2_apply, pay1_apply, blockSum_eq]
    rfl
  | n + 1, h => by
    have hN : cfg0.N = 48 := N_0
    have ih := congrFun (scratch_eq c n (Nat.lt_of_succ_lt h))
    funext y
    by_cases h0 : (n + 1) % 24 = 0
    · rw [outsAt0_A m c ⟨n + 1, h⟩ h0 (by dsimp only; omega)]
      dsimp only
      rw [sout_A, pay2_apply, pay1_apply, blockSum_eq]
      simp only [accAt, if_pos h0]
    · by_cases h1 : (n + 1) % 24 = 23
      · rw [outsAt0_C m c ⟨n + 1, h⟩ h0 h1]
        dsimp only
        rw [sout_C, pay2_apply, blockSum_eq]
        simp only [accAt, if_neg h0]
        exact congrArg (fun z => z + _) (ih y)
      · rw [outsAt0_B m c ⟨n + 1, h⟩ h0 h1]
        dsimp only
        rw [sout_B, pay2_apply, blockSum_eq]
        simp only [accAt, if_neg h0]
        exact congrArg (fun z => z + _) (ih y)

/-- At the last point of a run of 24 the output block holds the running sum times the scale, in every cell. -/
theorem out_eq (c : Dev nD) (n : ℕ) (h : n < cfg0.N) (h23 : n % 24 = 23) :
    (outsAt0 (F := Ideal) m c n h).1 = fun _ => accAt (blockSum (argP m c) (argQ m c)) n * scaleW := by
  have h0 : ¬(⟨n, h⟩ : Fin cfg0.N).val % 24 = 0 := by dsimp only; omega
  have e := outsAt0_C m c ⟨n, h⟩ h0 h23
  rw [sout_C, out_C] at e
  have e1 := congrArg Prod.fst e
  have e2 := congrArg Prod.snd e
  dsimp only at e1 e2
  rw [e1, ← e2]
  funext y
  rw [pay3_apply, scratch_eq]

end IdealRun

/-! ## The output array after the run, and the lines after the region -/

section Final

variable (m : (ℓ : Loc nD τ sig) → Buf (Elt Ideal) ℓ) (ρ : Dev nD → PrngReg)

/-- The two scaled running sums: after block 23 (the first half of the rows) and after block 47 (the second). -/
abbrev half0 (c : Dev nD) : EReal := accAt (blockSum (argP m c) (argQ m c)) 23 * scaleW
abbrev half1 (c : Dev nD) : EReal := accAt (blockSum (argP m c) (argQ m c)) 47 * scaleW

/-- The output array after the run: rows 0–7 hold the first half's value in every cell, rows 8–15 the second's. -/
def outArr (c : Dev nD) : Buf (Elt Ideal) ((c : Thread nD τ).loc main_v2) :=
  fun i => if (i 0).val < 8 then half0 m c else half1 m c

/-- The output window's block at point `t` is block `t / 24` of the rows. -/
theorem idx2 : ∀ t : Fin cfg0.N, win0_2.index t (0 : Fin 2) = t.val / 24 ∧ win0_2.index t (1 : Fin 2) = 0 :=
  (by decide +kernel : ∀ t : Fin grid0.N, win0_2.index t (0 : Fin 2) = t.val / 24 ∧ win0_2.index t (1 : Fin 2) = 0)

/-- What a write-back writes is its block of that array. -/
theorem flushed_eq (c : Dev nD) (t : Fin cfg0.N) (hf : (cfg0.win 2).flush t = true) :
    (dats m 0 c).flushed 2 t = ((cfg0.win 2).blk t).view.read (Elt Ideal) (outArr m c) := by
  have hN : cfg0.N = 48 := N_0
  have h23 : t.val % 24 = 23 := (flush0_2 t).mp hf
  show (cfg0.win 2).cut (grid0.coords t) ((dats m 0 c).after 2 t) = _
  rw [after0_2, out_eq m c t.val t.isLt h23]
  funext y
  rw [View.read_apply]
  show accAt _ t.val * scaleW = outArr m c _
  unfold outArr
  have hrow : ((((cfg0.win 2).blk t).view.emb y) 0 : ℕ) = win0_2.index t 0 * 8 + 1 * (y 0).val := rfl
  have hy : (y 0).val < 8 := (y 0).isLt
  rcases (show t.val = 23 ∨ t.val = 47 by have := t.isLt; omega) with h | h
  · rw [if_pos (by rw [hrow, (idx2 t).1, h]; omega), h]
  · rw [if_neg (by rw [hrow, (idx2 t).1, h]; omega), h]

/-- The last points of the two runs of 24. -/
abbrev t23 : Fin cfg0.N := ⟨23, by rw [show cfg0.N = 48 from N_0]; decide⟩
abbrev t47 : Fin cfg0.N := ⟨47, by rw [show cfg0.N = 48 from N_0]; decide⟩

/-- Cell (0, 0) of the output array lies in the block written back at point 23. -/
theorem mem_blk23 (c : Dev nD) : (ix2 (0 : Fin 16) (0 : Fin 128) : ((cfg0.win 2).arr.view.loc (c.tc : Thread nD τ)).2.ty.Idx) ∈ ((cfg0.win 2).blk t23).view.set := by
  show _ ∈ ((View.whole main_v2).slice (win0_2.rect t23)).set
  rw [View.set_slice_whole, Rect.mem_set_unit]
  intro a
  match a with
  | ⟨0, _⟩ =>
    show win0_2.index t23 0 * win0_2.size 0 ≤ 0 ∧ 0 < win0_2.index t23 0 * win0_2.size 0 + win0_2.xsize (grid0.coords t23) 0
    rw [show win0_2.index t23 0 * win0_2.size 0 = 0 from by decide +kernel, show win0_2.xsize (grid0.coords t23) 0 = 8 from by decide +kernel]; omega
  | ⟨1, _⟩ =>
    show win0_2.index t23 1 * win0_2.size 1 ≤ 0 ∧ 0 < win0_2.index t23 1 * win0_2.size 1 + win0_2.xsize (grid0.coords t23) 1
    rw [show win0_2.index t23 1 * win0_2.size 1 = 0 from by decide +kernel, show win0_2.xsize (grid0.coords t23) 1 = 128 from by decide +kernel]; omega

/-- Cell (8, 0) lies in the block written back at point 47. -/
theorem mem_blk47 (c : Dev nD) : (ix2 (8 : Fin 16) (0 : Fin 128) : ((cfg0.win 2).arr.view.loc (c.tc : Thread nD τ)).2.ty.Idx) ∈ ((cfg0.win 2).blk t47).view.set := by
  show _ ∈ ((View.whole main_v2).slice (win0_2.rect t47)).set
  rw [View.set_slice_whole, Rect.mem_set_unit]
  intro a
  match a with
  | ⟨0, _⟩ =>
    show win0_2.index t47 0 * win0_2.size 0 ≤ 8 ∧ 8 < win0_2.index t47 0 * win0_2.size 0 + win0_2.xsize (grid0.coords t47) 0
    rw [show win0_2.index t47 0 * win0_2.size 0 = 8 from by decide +kernel, show win0_2.xsize (grid0.coords t47) 0 = 8 from by decide +kernel]; omega
  | ⟨1, _⟩ =>
    show win0_2.index t47 1 * win0_2.size 1 ≤ 0 ∧ 0 < win0_2.index t47 1 * win0_2.size 1 + win0_2.xsize (grid0.coords t47) 1
    rw [show win0_2.index t47 1 * win0_2.size 1 = 0 from by decide +kernel, show win0_2.xsize (grid0.coords t47) 1 = 128 from by decide +kernel]; omega

/-- After the run, cell (0, 0) of the output array holds the first half's value and cell (8, 0) the second's. -/
theorem arr_00 (c : Dev nD) : (dats m 0 c).arrAt 2 cfg0.N (ix2 (0 : Fin 16) (0 : Fin 128)) = half0 m c :=
  ((dats m 0 c).arrAt_apply_of_mem 2 (outArr m c) (flushed_eq m c) cfg0.N t23 _ t23.isLt ((flush0_2 t23).mpr rfl) (mem_blk23 c)).trans
    (if_pos (by show (0 : ℕ) < 8; omega))
theorem arr_80 (c : Dev nD) : (dats m 0 c).arrAt 2 cfg0.N (ix2 (8 : Fin 16) (0 : Fin 128)) = half1 m c :=
  ((dats m 0 c).arrAt_apply_of_mem 2 (outArr m c) (flushed_eq m c) cfg0.N t47 _ t47.isLt ((flush0_2 t47).mpr rfl) (mem_blk47 c)).trans
    (if_neg (by show ¬((8 : ℕ) < 8); omega))

/-- A one-cell array cast to a scalar keeps its cell: both have row-major position 0. -/
theorem shapeCast_cell_scalar {α : Type} (x : (⟨2, ![1, 1]⟩ : Shape).Idx → α) (h : (⟨2, ![1, 1]⟩ : Shape).ShapeCasts ⟨0, ![]⟩)
    (j : (⟨0, ![]⟩ : Shape).Idx) : shapeCast ⟨0, ![]⟩ x h j = x (ix2 0 0) :=
  shapeCast_apply x h j (ix2 0 0) (by
    have h1 : ((⟨0, ![]⟩ : Shape).rowMajor j).val < 1 := ((⟨0, ![]⟩ : Shape).rowMajor j).isLt
    rw [Shape.rowMajor_val_two]
    show (0 : ℕ) * 1 + 0 = _
    omega)

/-- The one-cell slice of a [16, 128] array at offset `(a, 0)` holds the array's cell `(a, 0)`. -/
theorem slice_cell {α : Type} (a : ℕ) (ha : a < 16) (A : (⟨2, ![16, 128]⟩ : Shape).Idx → α)
    (h : (⟨2, ![16, 128]⟩ : Shape).Slices ![a, 0] ⟨2, ![1, 1]⟩) :
    extractStridedSlice ⟨2, ![1, 1]⟩ ![a, 0] A h (ix2 0 0) = A (ix2 (⟨a, ha⟩ : Fin 16) (0 : Fin 128)) :=
  extractStridedSlice_apply _ A h (ix2 0 0) (ix2 ⟨a, ha⟩ 0) fun ax => by
    match ax with
    | ⟨0, _⟩ => show a = a + 0; omega
    | ⟨1, _⟩ => rfl

/-- The lines after the region, on any contents `A` of the output array: cell (0, 0) plus cell (8, 0). -/
theorem tail_value (A : (⟨2, ![16, 128]⟩ : Shape).Idx → EReal) (h0 : (⟨2, ![16, 128]⟩ : Shape).Slices ![0, 0] ⟨2, ![1, 1]⟩)
    (h8 : (⟨2, ![16, 128]⟩ : Shape).Slices ![8, 0] ⟨2, ![1, 1]⟩) (hc : (⟨2, ![1, 1]⟩ : Shape).ShapeCasts ⟨0, ![]⟩)
    (x : (⟨0, ![]⟩ : Shape).Idx) :
    (shapeCast ⟨0, ![]⟩ (extractStridedSlice ⟨2, ![1, 1]⟩ ![0, 0] A h0) hc x : EReal)
        + shapeCast ⟨0, ![]⟩ (extractStridedSlice ⟨2, ![1, 1]⟩ ![8, 0] A h8) hc x
      = A (ix2 (⟨0, by omega⟩ : Fin 16) (0 : Fin 128)) + A (ix2 (⟨8, by omega⟩ : Fin 16) (0 : Fin 128)) := by
  rw [shapeCast_cell_scalar, shapeCast_cell_scalar, slice_cell 0 (by omega) A h0, slice_cell 8 (by omega) A h8]

/-- The lines after the region add cell (0, 0) and cell (8, 0) of the output array. -/
theorem tail_eq (c : Dev nD) :
    Pipeline.afterTail₀ cfgs (dats m) 0 (V0 m) [hostOps1] c main_v7 = fun _ => kernelValue scaleW (argP m c) (argQ m c) := by
  unfold Pipeline.afterTail₀
  show StableHlo.after hostOps1 _ (Proc.devRef .tc main_v7) = _
  after_results
  have hW : Pipeline.withArrays (cfgs 0).spec c (V0 m c) (fun w => (dats m 0 c).arrAt w (cfgs 0).N) (Proc.devRef .tc main_v2)
      = (dats m 0 c).arrAt 2 cfg0.N := Pipeline.withArrays_arr spec0 launch0.win.arr_inj c _ _ 2
  rw [hW]
  funext x
  refine (tail_value ((dats m 0 c).arrAt 2 cfg0.N) slices_S16x128_S1x1_0_0 slices_S16x128_S1x1_8_0 shapeCasts_S1x1_S_ x).trans ?_
  exact congrArg₂ (· + ·) (arr_00 m c) (arr_80 m c)

/-- The idealized kernel's run, read: the result at the Spec's kernel value of the arguments, the arguments unchanged. -/
theorem kernel_run : θ_run defs (onTc (τ := τ) (main (F := Ideal))) ⟨m, fun _ => 0, ρ⟩ fun r => ∀ c : Dev nD,
      r.2.mem ((c : Thread nD τ).loc main_v7) = (fun _ => kernelValue scaleW (argP m c) (argQ m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Final

end Cert.KlSum

end
-- ==== Proof.RefValue.lean ====
/-
  The reference program's result, read as a formula of its two argument arrays.

  The program computes, elementwise, m = log (½ (p + p)) and e = exp m, the two products e · (m − log p) and
  e · (m − log q), sums each over heads and positions for every sample, divides both sums by twelve, adds them,
  halves the result, and sums over the samples. Reading each operation at an index and each sum as a sum over
  coordinates gives the closed formula.
-/
import proofs.«177159_j76003741270582_2_alg».proof.Proof.Spec
import proofs.«177159_j76003741270582_2_alg».proof.Proof.Gen.ReferenceIdeal.Read
import Idealize.ShloMosaic.Lib.Pipeline.Value
import Idealize.ShloMosaic.Lib.ValueIdx
import Idealize.ShloMosaic.PureOps.Ideal.Laws

noncomputable section

open scoped BigOperators

namespace Cert.KlSum

open Idealize.ShloMosaic Idealize.ShloMosaic.ValueIdx

/-! ## Sums over index sets as sums over coordinates -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A sum over the two trailing axes of a rank-3 array -/

section Trailing

variable {n0 n1 n2 : Nat}
  (hred : (⟨3, ![n0, n1, n2]⟩ : Shape).ReducesTo [1, 2] ⟨1, ![n0]⟩)

/-- Dropping the two trailing coordinates keeps the leading one. -/
theorem drop12_val (i : (⟨3, ![n0, n1, n2]⟩ : Shape).Idx) : (hred.drop i 0).val = (i 0).val := rfl

/-- The indices whose leading coordinate is `b`, listed by their two trailing coordinates. -/
def rowEmb (b : Fin n0) : Fin n1 × Fin n2 ↪ (⟨3, ![n0, n1, n2]⟩ : Shape).Idx :=
  ⟨fun p => ix3 b p.1 p.2, fun p p' e => Prod.ext (congrFun e 1) (congrFun e 2)⟩

/-- The indices that drop to `b` are exactly those. -/
theorem filter_drop12 (b : Fin n0) :
    Finset.univ.filter (fun i : (⟨3, ![n0, n1, n2]⟩ : Shape).Idx => hred.drop i = ix1 b)
      = Finset.univ.map (rowEmb b) := by
  ext i
  simp only [Finset.mem_filter, Finset.mem_univ, true_and, Finset.mem_map, rowEmb,
    Function.Embedding.coeFn_mk]
  constructor
  · intro hi
    have hb : i 0 = b := Fin.ext ((drop12_val hred i).symm.trans (congrArg (fun j => (j 0).val) hi))
    exact ⟨(i 1, i 2), by rw [← hb]; exact (eq_ix3 i).symm⟩
  · rintro ⟨p, rfl⟩
    funext a
    match a with
    | ⟨0, _⟩ => exact Fin.ext (drop12_val hred _)

/-- The sum over the two trailing axes, read at sample `b`: the initial value plus the double sum over the two
    trailing coordinates. -/
theorem hostReduceAdd12 (y : (⟨3, ![n0, n1, n2]⟩ : Shape).Idx → EReal) (init : EReal) (b : Fin n0) :
    Ideal.hostReduceAdd hred y init (ix1 b) = init + ∑ h : Fin n1, ∑ l : Fin n2, y (ix3 b h l) := by
  unfold Ideal.hostReduceAdd
  rw [filter_drop12, Finset.sum_map, Fintype.sum_prod_type]
  rfl

end Trailing

/-! ## The reference's stages, read at an index -/

open Cert.ReferenceIdeal Cert.ReferenceIdeal.Gen Cert.ReferenceIdeal.Read

/-- The first product at an index: the summand `exp m · (m − log p)`. -/
theorem v7_at (x0 : (⟨S1024x12x4096, .f32⟩ : BufTy).Contents (Elt Ideal)) (i : S1024x12x4096.Idx) :
    val_main_v7 (F := Ideal) x0 i = rterm (x0 i) (x0 i) := by
  simp only [val_main_v7_apply, val_main_v4_apply, val_main_v6_apply, val_main_v3_apply, val_main_v5_apply,
    val_main_v2_apply, val_main_v1_apply, val_main_v0_apply, val_main_cst_apply, Ideal.mulf_def, Ideal.addf_def,
    Ideal.subf_def, Ideal.hostUnary_log_def, Ideal.hostUnary_exp_def, Ideal.ofBits_def, rterm, mid, halfW]

/-- The second product at an index: the summand `exp m · (m − log q)`. -/
theorem v13_at (x0 x1 : (⟨S1024x12x4096, .f32⟩ : BufTy).Contents (Elt Ideal)) (i : S1024x12x4096.Idx) :
    val_main_v13 (F := Ideal) x0 x1 i = rterm (x0 i) (x1 i) := by
  simp only [val_main_v13_apply, val_main_v4_apply, val_main_v12_apply, val_main_v3_apply, val_main_v11_apply,
    val_main_v2_apply, val_main_v1_apply, val_main_v0_apply, val_main_cst_apply, Ideal.mulf_def, Ideal.addf_def,
    Ideal.subf_def, Ideal.hostUnary_log_def, Ideal.hostUnary_exp_def, Ideal.ofBits_def, rterm, mid, halfW]

/-- The first per-sample sum. -/
theorem v8_at (x0 : (⟨S1024x12x4096, .f32⟩ : BufTy).Contents (Elt Ideal)) (b : Fin 1024) :
    val_main_v8 (F := Ideal) x0 (ix1 b)
      = zeroW + ∑ h : Fin 12, ∑ l : Fin 4096, rterm (x0 (ix3 b h l)) (x0 (ix3 b h l)) := by
  have e : val_main_v7 (F := Ideal) x0 = fun i => rterm (x0 i) (x0 i) := funext (v7_at x0)
  unfold val_main_v8
  rw [e]
  exact hostReduceAdd12 _ _ _ b

/-- The second per-sample sum. -/
theorem v14_at (x0 x1 : (⟨S1024x12x4096, .f32⟩ : BufTy).Contents (Elt Ideal)) (b : Fin 1024) :
    val_main_v14 (F := Ideal) x0 x1 (ix1 b)
      = zeroW + ∑ h : Fin 12, ∑ l : Fin 4096, rterm (x0 (ix3 b h l)) (x1 (ix3 b h l)) := by
  have e : val_main_v13 (F := Ideal) x0 x1 = fun i => rterm (x0 i) (x1 i) := funext (v13_at x0 x1)
  unfold val_main_v14
  rw [e]
  exact hostReduceAdd12 _ _ _ b

/-- The reference's result is the closed formula. -/
theorem ref_is_spec (x0 x1 : (⟨Cert.ReferenceIdeal.S1024x12x4096, .f32⟩ : BufTy).Contents (Elt Ideal)) :
    Cert.ReferenceIdeal.Read.val_main_v20 (F := Ideal) x0 x1 = fun _ => refValue x0 x1 := by
  funext i
  rw [val_main_v20_apply, sum_idx1]
  unfold refValue
  refine congrArg₂ (· + ·) rfl (Finset.sum_congr rfl fun b _ => ?_)
  simp only [val_main_v19_apply, val_main_v18_apply, val_main_cst_4_apply, val_main_v17_apply, val_main_v10_apply,
    val_main_v16_apply, val_main_v9_apply, val_main_v15_apply, val_main_cst_1_apply, val_main_cst_3_apply,
    v8_at, v14_at, Ideal.mulf_def, Ideal.addf_def, Ideal.hostDivf_def, Ideal.ofBits_def, halfW, twelveW]

end Cert.KlSum

end
-- ==== Proof.PreDecode.lean ====
/-
  From the stated precondition to positivity of the arguments.

  The precondition is a conjunction of four statements over all entries: |x0| < +inf, |x1| < +inf, x0 > 0, x1 > 0, each
  an "and" over the whole array of an entrywise comparison, and the four results and-ed together. Read at the extended
  reals, an entry x with 0 < x and max x (-x) < ⊤ is neither ⊥ nor ⊤, so it is a real number, and that real is positive.
-/
import proofs.«177159_j76003741270582_2_alg».proof.Proof.Spec
import proofs.«177159_j76003741270582_2_alg».proof.Pre_finite_inputs
import Idealize.ShloMosaic.Lib.ReduceAll
import Idealize.ShloMosaic.Lib.ValueIdx
import Idealize.ShloMosaic.PureOps.Ideal.Laws

noncomputable section

namespace Cert.KlSum

open Idealize.ShloMosaic Idealize.ShloMosaic.ValueIdx

/-- An extended real that is positive and not ⊤ is a positive real number. -/
theorem exists_pos_real {x : EReal} (hpos : 0 < x) (hfin : x ≠ ⊤) : ∃ r : ℝ, 0 < r ∧ x = (r : EReal) := by
  induction x using EReal.rec with
  | bot => exact absurd hpos (by simp)
  | top => exact absurd rfl hfin
  | coe r => exact ⟨r, EReal.coe_pos.1 hpos, rfl⟩

/-- The result shape of the reduction over all three axes has exactly one index. -/
instance subsingleton_scalarIdx : Subsingleton Cert.Pre_finite_inputs.S_.Idx := ⟨fun a b => funext fun d => d.elim0⟩

/-- The comparison "less than" at the extended reals is 1 exactly when the order relation holds. -/
theorem cmp_olt_eq_one {a b : EReal} (h : Ideal.cmp .olt a b = 1#1) : a < b := by
  by_contra hn
  simp [Ideal.cmp, hn] at h

/-- The comparison "greater than" at the extended reals is 1 exactly when the order relation holds. -/
theorem cmp_ogt_eq_one {a b : EReal} (h : Ideal.cmp .ogt a b = 1#1) : b < a := by
  by_contra hn
  simp [Ideal.cmp, hn] at h

open Cert.Pre_finite_inputs in
/-- One array: if every entry passes both comparisons, |x| < +inf and x > 0, every entry is a positive real. -/
theorem posReal_of_cmps [Cert.Pre_finite_inputs.Facts] (x : FVec Ideal S1024x12x4096 .f32)
    (hfin : ∀ i, cmpf .olt (Host.absf x)
      (broadcastInDim S1024x12x4096 ![] Facts.bcast_S_S1024x12x4096 (constant (F := Ideal) S_ .f32 0x7F800000#32)) i = 1#1)
    (hpos : ∀ i, cmpf .ogt x
      (broadcastInDim S1024x12x4096 ![] Facts.bcast_S_S1024x12x4096 (constant (F := Ideal) S_ .f32 0x00000000#32)) i = 1#1) :
    PosReal x := by
  intro i
  have h1 : max (x i) (-(x i)) < Ideal.ofBits .f32 0x7F800000#32 := cmp_olt_eq_one (hfin i)
  have h2 : Ideal.ofBits .f32 0x00000000#32 < x i := cmp_ogt_eq_one (hpos i)
  rw [Ideal.ofBits_zero_f32] at h2
  exact exists_pos_real h2 (fun ht => by rw [ht] at h1; exact absurd h1 (by simp))

/-- The stated precondition makes every entry of both arguments a positive real. -/
theorem posReal_of_pre [Cert.Pre_finite_inputs.Facts]
    (x0 x1 : FVec Ideal Cert.Pre_finite_inputs.S1024x12x4096 .f32)
    (h : Cert.Pre_finite_inputs.fn (F := Ideal) x0 x1 = fun _ => 1#1) : PosReal x0 ∧ PosReal x1 := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨posReal_of_cmps x0 (Host.reduce_andi_all _ _ _ _ _ h1) (Host.reduce_andi_all _ _ _ _ _ h3),
    posReal_of_cmps x1 (Host.reduce_andi_all _ _ _ _ _ h2) (Host.reduce_andi_all _ _ _ _ _ h4)⟩

end Cert.KlSum

end
-- ==== Proof.LibBlockSum.lean ====
/-
  Sums over a range cut into equal blocks.

  The numbers below `A * B` are the numbers `B * t + r` with `t < A` and `r < B`, each once: a sum over them is the
  double sum over the block `t` and the position `r` inside the block. A sum over triples is the triple sum.
-/
import Mathlib.Algebra.BigOperators.Fin
import Mathlib.Logic.Equiv.Fin.Basic

open scoped BigOperators

namespace Cert.BlockSum

variable {M : Type*} [AddCommMonoid M]

/-- Position `r` of block `t` lies below `A * B`. -/
theorem blk_lt {A B : ℕ} (t : Fin A) (r : Fin B) : B * t.val + r.val < A * B :=
  calc B * t.val + r.val < B * t.val + B := Nat.add_lt_add_left r.isLt _
    _ = B * (t.val + 1) := (Nat.mul_succ _ _).symm
    _ ≤ B * A := Nat.mul_le_mul_left B t.isLt
    _ = A * B := Nat.mul_comm _ _

/-- A sum over the numbers below `N = A * B` is the double sum over blocks and positions. -/
theorem sum_fin_blocks {A B N : ℕ} (hN : N = A * B) (f : Fin N → M) :
    ∑ j, f j = ∑ t : Fin A, ∑ r : Fin B, f ⟨B * t.val + r.val, hN ▸ blk_lt t r⟩ := by
  subst hN
  rw [← Equiv.sum_comp finProdFinEquiv f, Fintype.sum_prod_type]
  refine Finset.sum_congr rfl fun t _ => Finset.sum_congr rfl fun r _ => congrArg f (Fin.ext ?_)
  show r.val + B * t.val = B * t.val + r.val
  exact Nat.add_comm _ _

/-- A sum over triples is the triple sum. -/
theorem sum_triple {α β γ : Type*} [Fintype α] [Fintype β] [Fintype γ] (f : α × β × γ → M) :
    ∑ q, f q = ∑ x, ∑ y, ∑ z, f (x, y, z) := by
  rw [Fintype.sum_prod_type]
  exact Finset.sum_congr rfl fun x _ => Fintype.sum_prod_type _

end Cert.BlockSum
-- ==== Proof.Algebra.lean ====
/-
  The law that joins the two values of the specification, for arrays of positive reals.

  Write T x y = x (log x − log y) for positive reals x, y. At positive reals the kernel's summand
  p · log (p / q) is T p q. The reference's m = log (½ (p + p)) is log p, so exp m = p and its summand
  exp m · (m − log q) is T p q again, while the summand of the array against itself is T p p = 0.

  So both values are real numbers. The kernel's is 1/24 times the sum of T over the 12288 rows cut into 48 blocks
  of 256 rows, the reference's is ½ · 1/12 times the same sum cut into 1024 samples of 12 heads.
-/
import Mathlib
import Idealize.ShloMosaic.PureOps.Ideal
import Idealize.ShloMosaic.PureOps.Ideal.Laws
import proofs.«177159_j76003741270582_2_alg».proof.Proof.Spec
import proofs.«177159_j76003741270582_2_alg».proof.Proof.LibBlockSum

noncomputable section

namespace Cert.KlSum

open Idealize.ShloMosaic Idealize.ShloMosaic.ValueIdx
open scoped BigOperators

namespace Alg

/-! ### The three float words -/

theorem zeroW_eq : zeroW = 0 := Ideal.ofBits_zero_f32

theorem halfW_eq : halfW = ((1 / 2 : ℝ) : EReal) := by
  simp [halfW, Ideal.ofBits, Ideal.ieee, -EReal.coe_mul]; norm_num

theorem twelveW_eq : twelveW = ((12 : ℝ) : EReal) := by
  simp [twelveW, Ideal.ofBits, Ideal.ieee, -EReal.coe_mul]; norm_num

/-! ### The summands at positive reals -/

/-- The common real summand. -/
def T (x y : ℝ) : ℝ := x * (Real.log x - Real.log y)

theorem T_self (x : ℝ) : T x x = 0 := by
  unfold T; rw [sub_self, mul_zero]

/-- The kernel's summand at positive reals. -/
theorem kterm_coe {x y : ℝ} (hx : 0 < x) (hy : 0 < y) :
    kterm (x : EReal) (y : EReal) = ((T x y : ℝ) : EReal) := by
  have hxy : ¬ x * (1 / y) ≤ 0 := not_le.mpr (by positivity)
  rw [kterm, Ideal.div_coe hy.ne', ← EReal.coe_mul, Ideal.log_coe, if_neg hxy, ← EReal.coe_mul]
  congr 1
  rw [T, one_div, Real.log_mul hx.ne' (inv_ne_zero hy.ne'), Real.log_inv]
  ring

/-- The reference's m at a positive real is its logarithm. -/
theorem mid_coe {x : ℝ} (hx : 0 < x) : mid (x : EReal) = ((Real.log x : ℝ) : EReal) := by
  have h2 : (1 / 2 : ℝ) * (x + x) = x := by ring
  rw [mid, halfW_eq, ← EReal.coe_add, ← EReal.coe_mul, h2, Ideal.log_coe, if_neg (not_le.mpr hx)]

/-- The reference's summand at positive reals: the kernel's. -/
theorem rterm_coe {x y : ℝ} (hx : 0 < x) (hy : 0 < y) :
    rterm (x : EReal) (y : EReal) = ((T x y : ℝ) : EReal) := by
  rw [rterm, mid_coe hx, Ideal.exp_coe, Real.exp_log hx, Ideal.log_coe, if_neg (not_le.mpr hy),
    ← EReal.coe_sub, ← EReal.coe_mul, T]

/-! ### Finite sums of reals inside the extended reals -/

theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-! ### Rows, blocks and the running sum -/

/-- The index type of the arrays. -/
abbrev I3 : Type := (⟨3, ![1024, 12, 4096]⟩ : Shape).Idx

/-- Row R of a real array at position l. -/
def rowR (X : I3 → ℝ) (R : ℕ) (l : Fin 4096) : ℝ :=
  X (ix3 (⟨R / 12 % 1024, Nat.mod_lt _ (by norm_num)⟩ : Fin 1024) (⟨R % 12, Nat.mod_lt _ (by norm_num)⟩ : Fin 12) l)

theorem rowAt_coe (X : I3 → ℝ) (R : ℕ) (l : Fin 4096) :
    rowAt (fun i => (X i : EReal)) R l = ((rowR X R l : ℝ) : EReal) := rfl

/-- A row whose number has sample b and head h is the (b, h) row. -/
theorem rowR_of_eq (X : I3 → ℝ) (R : ℕ) (b : Fin 1024) (h : Fin 12) (l : Fin 4096)
    (e1 : R / 12 % 1024 = b.val) (e2 : R % 12 = h.val) : rowR X R l = X (ix3 b h l) := by
  obtain ⟨b, hb⟩ := b
  obtain ⟨h, hh⟩ := h
  dsimp only at e1 e2
  subst e1 e2
  rfl

theorem rowR_block (X : I3 → ℝ) (b : Fin 1024) (h : Fin 12) (l : Fin 4096) :
    rowR X (12 * b.val + h.val) l = X (ix3 b h l) :=
  rowR_of_eq X _ b h l (by omega) (by omega)

/-- The sum of the summand over the positions of row R. -/
def rowSum (P Q : I3 → ℝ) (R : ℕ) : ℝ := ∑ l : Fin 4096, T (rowR P R l) (rowR Q R l)

/-- Block t's real contribution. -/
def blockR (P Q : I3 → ℝ) (t : ℕ) : ℝ := ∑ r : Fin 256, rowSum P Q (256 * t + r.val)

theorem blockSum_coe (P Q : I3 → ℝ) (hP : ∀ i, 0 < P i) (hQ : ∀ i, 0 < Q i) (t : ℕ) :
    blockSum (fun i => (P i : EReal)) (fun i => (Q i : EReal)) t = ((blockR P Q t : ℝ) : EReal) := by
  unfold blockSum blockR rowSum
  rw [coe_sum]
  refine Finset.sum_congr rfl fun r _ => ?_
  rw [coe_sum]
  refine Finset.sum_congr rfl fun l _ => ?_
  rw [rowAt_coe, rowAt_coe]
  exact kterm_coe (hP _) (hQ _)

/-- The running sum at a multiple of 24 restarts. -/
theorem accAt_restart (B : ℕ → EReal) (k : ℕ) : accAt B (24 * k) = zeroW + B (24 * k) := by
  cases k with
  | zero => rfl
  | succ k =>
    have e : 24 * (k + 1) = (24 * k + 23) + 1 := by ring
    rw [e, accAt, if_pos (by omega)]

/-- Inside a run of 24 blocks the running sum is the zero word plus the blocks so far. -/
theorem accAt_block (B : ℕ → EReal) (k j : ℕ) (hj : j ≤ 23) :
    accAt B (24 * k + j) = zeroW + ∑ i ∈ Finset.range (j + 1), B (24 * k + i) := by
  induction j with
  | zero => simp [accAt_restart]
  | succ j ih =>
    have e : 24 * k + (j + 1) = (24 * k + j) + 1 := by ring
    rw [e, accAt, if_neg (by omega), ih (by omega), Finset.sum_range_succ _ (j + 1), add_assoc, e]

theorem accAt_23 (B : ℕ → EReal) : accAt B 23 = zeroW + ∑ i ∈ Finset.range 24, B i := by
  have h := accAt_block B 0 23 le_rfl
  simpa using h

theorem accAt_47 (B : ℕ → EReal) : accAt B 47 = zeroW + ∑ i ∈ Finset.range 24, B (24 + i) := by
  have h := accAt_block B 1 23 le_rfl
  simpa using h

/-! ### The two values as reals -/

theorem kernelValue_coe (P Q : I3 → ℝ) (hP : ∀ i, 0 < P i) (hQ : ∀ i, 0 < Q i) :
    kernelValue (((1 / 24 : ℝ) : ℝ) : EReal) (fun i => (P i : EReal)) (fun i => (Q i : EReal))
      = (((∑ i ∈ Finset.range 24, blockR P Q i) * (1 / 24)
          + (∑ i ∈ Finset.range 24, blockR P Q (24 + i)) * (1 / 24) : ℝ) : EReal) := by
  unfold kernelValue
  rw [accAt_23, accAt_47, zeroW_eq, zero_add, zero_add]
  simp only [blockSum_coe P Q hP hQ]
  rw [← coe_sum, ← coe_sum, ← EReal.coe_mul, ← EReal.coe_mul, ← EReal.coe_add]

theorem refValue_coe (P Q : I3 → ℝ) (hP : ∀ i, 0 < P i) (hQ : ∀ i, 0 < Q i) :
    refValue (fun i => (P i : EReal)) (fun i => (Q i : EReal))
      = ((∑ b : Fin 1024, (1 / 2) *
          ((∑ h : Fin 12, ∑ l : Fin 4096, T (P (ix3 b h l)) (P (ix3 b h l))) * (1 / 12)
            + (∑ h : Fin 12, ∑ l : Fin 4096, T (P (ix3 b h l)) (Q (ix3 b h l))) * (1 / 12)) : ℝ) : EReal) := by
  have hr1 : ∀ i, rterm (P i : EReal) (P i : EReal) = ((T (P i) (P i) : ℝ) : EReal) :=
    fun i => rterm_coe (hP i) (hP i)
  have hr2 : ∀ i, rterm (P i : EReal) (Q i : EReal) = ((T (P i) (Q i) : ℝ) : EReal) :=
    fun i => rterm_coe (hP i) (hQ i)
  have h12 : (12 : ℝ) ≠ 0 := by norm_num
  unfold refValue
  simp only [hr1, hr2, zeroW_eq, halfW_eq, twelveW_eq, zero_add, Ideal.div_coe h12, ← coe_sum,
    ← EReal.coe_mul, ← EReal.coe_add]

/-! ### The real identity: the same rows, cut two ways -/

theorem real_identity (P Q : I3 → ℝ) :
    (∑ i ∈ Finset.range 24, blockR P Q i) * (1 / 24)
        + (∑ i ∈ Finset.range 24, blockR P Q (24 + i)) * (1 / 24)
      = ∑ b : Fin 1024, (1 / 2) *
          ((∑ h : Fin 12, ∑ l : Fin 4096, T (P (ix3 b h l)) (P (ix3 b h l))) * (1 / 12)
            + (∑ h : Fin 12, ∑ l : Fin 4096, T (P (ix3 b h l)) (Q (ix3 b h l))) * (1 / 12)) := by
  -- the two runs of 24 blocks are the 48 blocks
  have hA : ∑ i ∈ Finset.range 24, blockR P Q i + ∑ i ∈ Finset.range 24, blockR P Q (24 + i)
      = ∑ t : Fin 48, blockR P Q t.val := by
    rw [← Finset.sum_range_add (fun t => blockR P Q t) 24 24, Finset.sum_range]
  -- 48 blocks of 256 rows are the 12288 rows
  have hB : ∑ t : Fin 48, blockR P Q t.val = ∑ R : Fin 12288, rowSum P Q R.val := by
    rw [Cert.BlockSum.sum_fin_blocks (A := 48) (B := 256) (by norm_num)
      (fun R : Fin 12288 => rowSum P Q R.val)]
    rfl
  -- the 12288 rows are 1024 samples of 12 heads
  have hC : ∑ R : Fin 12288, rowSum P Q R.val
      = ∑ b : Fin 1024, ∑ h : Fin 12, rowSum P Q (12 * b.val + h.val) :=
    Cert.BlockSum.sum_fin_blocks (A := 1024) (B := 12) (by norm_num)
      (fun R : Fin 12288 => rowSum P Q R.val)
  have hD : ∀ (b : Fin 1024) (h : Fin 12),
      rowSum P Q (12 * b.val + h.val) = ∑ l : Fin 4096, T (P (ix3 b h l)) (Q (ix3 b h l)) := by
    intro b h
    unfold rowSum
    refine Finset.sum_congr rfl fun l _ => ?_
    rw [rowR_block, rowR_block]
  -- an array against itself contributes nothing
  have hE : ∀ b : Fin 1024,
      (∑ h : Fin 12, ∑ l : Fin 4096, T (P (ix3 b h l)) (P (ix3 b h l))) = 0 := by
    intro b
    simp only [T_self, Finset.sum_const_zero]
  rw [← add_mul, hA, hB, hC, Finset.sum_mul]
  refine Finset.sum_congr rfl fun b _ => ?_
  rw [hE b]
  simp only [hD]
  ring

end Alg

/-! ### The law -/

open Alg in
theorem kernelValue_eq_refValue (p q : Arr3) (hp : PosReal p) (hq : PosReal q) :
    kernelValue (((1 / 24 : ℝ) : ℝ) : EReal) p q = refValue p q := by
  have hp' : ∀ i, ∃ r : ℝ, 0 < r ∧ p i = (r : EReal) := hp
  have hq' : ∀ i, ∃ r : ℝ, 0 < r ∧ q i = (r : EReal) := hq
  choose P hP0 hP using hp'
  choose Q hQ0 hQ using hq'
  have ep : p = fun i => (P i : EReal) := funext hP
  have eq : q = fun i => (Q i : EReal) := funext hQ
  rw [ep, eq, kernelValue_coe P Q hP0 hQ0, refValue_coe P Q hP0 hQ0, real_identity]

end Cert.KlSum

end
-- ==== Proof.lean ====
/-
  The certificate of a summed divergence kernel against its jnp reference.

  Inputs: two arrays `p`, `q` of shape [1024, 12, 4096]. The kernel streams both, flattened to 12288 rows, in 48 blocks of
  256 rows; it accumulates `Σ p · log (p / q)` over the first 24 blocks and over the last 24, scales each of the two sums
  by a constant it spells `0.5 / 12` (a float word the certificate's table names `1/24`), and returns their sum. The
  reference computes `m = log (½ (p + p))`, `e = exp m`, and `Σ_samples ½ ((Σ e (m − log p)) / 12 + (Σ e (m − log q)) / 12)`.

  The precondition says every entry of `p` and `q` is finite and POSITIVE: the reference takes `log p` and `log q`, so
  positivity is its own domain. (Without it the two programs differ: at `p = 1, q = −1` in one cell the kernel's summand
  is `1 · log (−1)`, the junk value `⊥`, while the reference's is `1 · (0 − log (−1)) = ⊤`.) On positive reals
  `½ (p + p) = p`, `exp (log p) = p`, `log (p / q) = log p − log q`: the first of the reference's two sums vanishes, the
  second has the kernel's summand, and both programs return `(1/24) Σ p (log p − log q)` over all entries
  (`Cert.KlSum.kernelValue_eq_refValue`).

  The kernel's side is read off its generated frame run (`Cert.KlSum.kernel_run`), the reference's off its generated run
  (`Cert.KlSum.ref_is_spec`); the frames of the two kernel programs are the generated ones, the reference's frame is its
  run with the result dropped; the one rewrite of the idealization, the named constant, is that rule's statement.
-/
import proofs.«177159_j76003741270582_2_alg».proof.Defs
import proofs.«177159_j76003741270582_2_alg».proof.Proof.Gen.Kernel
import proofs.«177159_j76003741270582_2_alg».proof.Proof.Gen.Kernel.Frame
import proofs.«177159_j76003741270582_2_alg».proof.Proof.Gen.KernelIdeal
import proofs.«177159_j76003741270582_2_alg».proof.Proof.Gen.KernelIdeal.Frame
import proofs.«177159_j76003741270582_2_alg».proof.Proof.Gen.ReferenceIdeal
import proofs.«177159_j76003741270582_2_alg».proof.Proof.Gen.ReferenceIdeal.Run
import proofs.«177159_j76003741270582_2_alg».proof.Proof.Gen.ReferenceIdeal.Read
import proofs.«177159_j76003741270582_2_alg».proof.Proof.Gen.Pre_finite_inputs
import proofs.«177159_j76003741270582_2_alg».proof.Proof.KernelRun
import proofs.«177159_j76003741270582_2_alg».proof.Proof.RefValue
import proofs.«177159_j76003741270582_2_alg».proof.Proof.PreDecode
import proofs.«177159_j76003741270582_2_alg».proof.Proof.Algebra
import Idealize.ShloMosaic.Adequacy
import Idealize.ShloMosaic.Init

noncomputable section

namespace Cert.Proof

open Idealize.ShloMosaic Idealize.ShloMosaic.TcCoe Idealize.SL.Sem Cert.KlSum

/-- The kernel's scale denotes the rational 1/24 at the ideal values, by the certificate's table. -/
theorem scale_eq : scaleW = ((1 / 24 : ℝ) : EReal) :=
  IdealRules.named_const.ideal_named_scalar _ _ _ _ rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization's one rewrite: the table gives the name the value 1/24, and the printed constant is that value. -/
theorem preserves : Cert.preserves_Kernel_KernelIdeal :=
  IdealRules.named_const.statement Cert.KernelIdeal.κ "inv_24" .f32 0x3D2AAAAB#32 ((1 / 24 : ℝ) : EReal) rfl

/-- At the ideal values the kernel's result is `kernelValue` of the arguments and the reference's is `refValue` of
    arguments that agree; on positive real entries the two are one number. -/
theorem algebraic : Cert.algebraic_KernelIdeal_ReferenceIdeal := by
  intro m ρ m' ρ' hpre hagree
  refine ⟨fun c => fun _ => kernelValue scaleW (argP m c) (argQ m c), kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, ref_is_spec, (hagree c).1, (hagree c).2]
  obtain ⟨hp, hq⟩ := posReal_of_pre _ _ (hpre c)
  funext _
  rw [scale_eq]
  exact (kernelValue_eq_refValue _ _ hp hq).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
